-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S32768x1024 .f32) (main_arg1 : FVec F S1024x1024 .f32) (main_arg2 : FVec F S1024x1024 .f32) (main_arg3 : FVec F S1024x1024 .f32) (main_arg4 : FVec F S1024 .f32) (main_arg5 : FVec F S1024 .f32) (main_arg6 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 35
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024x1024, .f32⟩
  | .hbm, ⟨9, _⟩ => ⟨S1024x1024, .i1⟩
  | .hbm, ⟨10, _⟩ => ⟨S_, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S_, .f32⟩
  | .hbm, ⟨17, _⟩ => ⟨S1024x1024, .f32⟩
  | .hbm, ⟨18, _⟩ => ⟨S1024x1024, .i1⟩
  | .hbm, ⟨19, _⟩ => ⟨S_, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S_, .f32⟩
  | .hbm, ⟨26, _⟩ => ⟨S1024x1024, .f32⟩
  | .hbm, ⟨27, _⟩ => ⟨S1024x1024, .i1⟩
  | .hbm, ⟨28, _⟩ => ⟨S_, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_v5 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v6 : Ref sig .tc := ⟨.hbm, 23, rfl⟩
abbrev main_v7 : Ref sig .tc := ⟨.hbm, 24, rfl⟩
abbrev main_cst_5 : Ref sig .tc := ⟨.hbm, 25, rfl⟩
abbrev main_v8 : Ref sig .tc := ⟨.hbm, 26, rfl⟩
abbrev main_v9 : Ref sig .tc := ⟨.hbm, 27, rfl⟩
abbrev main_cst_6 : Ref sig .tc := ⟨.hbm, 28, rfl⟩
abbrev main_cst_7 : Ref sig .tc := ⟨.hbm, 29, rfl⟩
abbrev main_call2_v0 : Ref sig .tc := ⟨.hbm, 30, rfl⟩
abbrev main_call2_v1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1024x1024 : S_.BroadcastsInDim S1024x1024 (![] : Fin 0 → Fin S1024x1024.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S32768x1024.size a
  hwx0_7 : ∀ i : grid0.Coords, EltTy.bits .f32 = 32 ∨ (Rect.block (s := S32768x1024) S1024x1024.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S32768x1024, .f32⟩
  | .hbm, ⟨9, _⟩ => ⟨S32768x1024, .i1⟩
  | .hbm, ⟨10, _⟩ => ⟨S_, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S_, .f32⟩
  | .hbm, ⟨23, _⟩ => ⟨S32768x1024, .f32⟩
  | .hbm, ⟨24, _⟩ => ⟨S_, .f32⟩
  | .hbm, ⟨25, _⟩ => ⟨S1024x1024, .f32⟩
  | .hbm, ⟨26, _⟩ => ⟨S1024x1024, .i1⟩
  | .hbm, ⟨27, _⟩ => ⟨S_, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S32768x1024, .f32⟩
  | .hbm, ⟨34, _⟩ => ⟨S32768x1, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S1024x1024, .f32⟩
  | .hbm, ⟨43, _⟩ => ⟨S1024x1024, .i1⟩
  | .hbm, ⟨44, _⟩ => ⟨S_, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S32768x1024, .f32⟩
  | .hbm, ⟨51, _⟩ => ⟨S32768x1, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S1024x1024, .f32⟩
  | .hbm, ⟨60, _⟩ => ⟨S1024x1024, .i1⟩
  | .hbm, ⟨61, _⟩ => ⟨S_, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S32768x1024, .f32⟩
  | .hbm, ⟨68, _⟩ => ⟨S32768x1, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_cst_5 : Ref sig .tc := ⟨.hbm, 24, rfl⟩
abbrev main_v9 : Ref sig .tc := ⟨.hbm, 25, rfl⟩
abbrev main_v10 : Ref sig .tc := ⟨.hbm, 26, rfl⟩
abbrev main_cst_6 : Ref sig .tc := ⟨.hbm, 27, rfl⟩
abbrev main_cst_7 : Ref sig .tc := ⟨.hbm, 28, rfl⟩
abbrev main_call1_v0 : Ref sig .tc := ⟨.hbm, 29, rfl⟩
abbrev main_call1_v1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_8 : Ref sig .tc := ⟨.hbm, 41, rfl⟩
abbrev main_v21 : Ref sig .tc := ⟨.hbm, 42, rfl⟩
abbrev main_v22 : Ref sig .tc := ⟨.hbm, 43, rfl⟩
abbrev main_cst_9 : Ref sig .tc := ⟨.hbm, 44, rfl⟩
abbrev main_cst_10 : Ref sig .tc := ⟨.hbm, 45, rfl⟩
abbrev main_call2_v0 : Ref sig .tc := ⟨.hbm, 46, rfl⟩
abbrev main_call2_v1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_11 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_cst_13 : Ref sig .tc := ⟨.hbm, 62, rfl⟩
abbrev main_call3_v0 : Ref sig .tc := ⟨.hbm, 63, rfl⟩
abbrev main_call3_v1 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  reducesTo_S32768x1024_S32768_d1 : S32768x1024.ReducesTo [1] S32768
  h_S_ : 0 < S_.numel
  bcast_S_S32768 : S_.BroadcastsInDim S32768 (![] : Fin 0 → Fin S32768.rank)
  bcast_S_S1024x1024 : S_.BroadcastsInDim S1024x1024 (![] : Fin 0 → Fin S1024x1024.rank)
  bcast_S32768_S32768x1_0 : S32768.BroadcastsInDim S32768x1 (![0] : Fin 1 → Fin S32768x1.rank)
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.Spec.lean ====
/-
  The function both programs compute, and the algebra between their two arrangements of it.

  For an activation array x : [32768, 1024], three weight arrays w_e : [1024, 1024] and three column
  scales a_e : [1024]:
    q(v)       = 1 if v ≥ 0, else -1                    (the binary quantizer)
    Z_e(n, u)  = Σ_k q(x(n, k)) · q(w_e(k, u))          (the binary product)
    β(n)       = (Σ_k |x(n, k)|) / 1024                 (the mean absolute value of row n)
  One arrangement is ((Z_0·a_0 + Z_1·a_1) + Z_2·a_2)(n, u) · β(n): the ensemble summed first, the row
  scale applied once. The other is (Z_0·(β·a_0) + Z_1·(β·a_1)) + Z_2·(β·a_2): every term scaled by the
  outer product β(n)·a_e(u). They agree wherever β(n) and the a_e(u) are real numbers (each Z_e is a sum
  of products of ±1, always real): that is distributivity of · over +, which holds on the reals and
  fails on the extended reals at the infinities, so the finiteness of x and of the a_e is used.
-/
import Idealize.ShloMosaic.PureOps.Ideal
import Idealize.ShloMosaic.PureOps.Ideal.Laws
import Idealize.ShloMosaic.Lib.ValueIdx

noncomputable section

open scoped BigOperators

namespace Cert.BinDense

open Idealize.ShloMosaic Idealize.ShloMosaic.ValueIdx

/-- The activations' shape, the weights' shape, the column scales' shape. -/
abbrev SX : Shape := ⟨2, ![32768, 1024]⟩
abbrev SW : Shape := ⟨2, ![1024, 1024]⟩
abbrev SA : Shape := ⟨1, ![1024]⟩

/-! ## The three float words the programs spell, as real numbers -/

/-- The word of `0.0` denotes `0`. -/
theorem word_zero : Ideal.ofBits .f32 0x00000000#32 = 0 := Ideal.ofBits_zero_f32

/-- The word of `1.0` denotes the real `1`. -/
theorem word_one : Ideal.ofBits .f32 0x3F800000#32 = ((1 : ℝ) : EReal) :=
  (IdealRules.sign_bit.ideal_onePat .f32).trans EReal.coe_one.symm

/-- The word of `-1.0` denotes the real `-1`. -/
theorem word_negOne : Ideal.ofBits .f32 0xBF800000#32 = ((-1 : ℝ) : EReal) :=
  (IdealRules.sign_bit.ideal_negOnePat .f32).trans (by rw [EReal.coe_neg, EReal.coe_one])

/-- The word of `1024.0` denotes the real `1024`. -/
theorem word_1024 : Ideal.ofBits .f32 0x44800000#32 = ((1024 : ℝ) : EReal) := by
  simp [Ideal.ofBits, Ideal.ieee, -EReal.coe_mul]; norm_num

/-! ## The specification -/

/-- The binary quantizer: `1` at and above zero, `-1` below (at `⊤` it is `1`, at `⊥` it is `-1`). -/
def quant (v : EReal) : EReal :=
  Scalar.select (Ideal.cmp .oge v (Ideal.ofBits .f32 0x00000000#32)) (Ideal.ofBits .f32 0x3F800000#32)
    (Ideal.ofBits .f32 0xBF800000#32)

/-- The binary product of the quantized activations' row `n` with the quantized weights' column `u`. -/
def binDot (x : SX.Idx → EReal) (w : SW.Idx → EReal) (n : Fin 32768) (u : Fin 1024) : EReal :=
  ∑ k : Fin 1024, quant (x (ix2 n k)) * quant (w (ix2 k u))

/-- The mean absolute value of the activations' row `n`. -/
def rowScale (x : SX.Idx → EReal) (n : Fin 32768) : EReal :=
  Ideal.div (∑ k : Fin 1024, max (x (ix2 n k)) (-(x (ix2 n k)))) (Ideal.ofBits .f32 0x44800000#32)

/-- The ensemble summed first, the row scale applied once at the end. -/
def sumThenScale (x : SX.Idx → EReal) (w0 w1 w2 : SW.Idx → EReal) (a0 a1 a2 : SA.Idx → EReal) : SX.Idx → EReal :=
  fun i => ((binDot x w0 (i 0) (i 1) * a0 (ix1 (i 1)) + binDot x w1 (i 0) (i 1) * a1 (ix1 (i 1)))
    + binDot x w2 (i 0) (i 1) * a2 (ix1 (i 1))) * rowScale x (i 0)

/-- Every term scaled by the outer product of the row scale and its column scale, then summed. -/
def scaleThenSum (x : SX.Idx → EReal) (w0 w1 w2 : SW.Idx → EReal) (a0 a1 a2 : SA.Idx → EReal) : SX.Idx → EReal :=
  fun i => (binDot x w0 (i 0) (i 1) * (rowScale x (i 0) * a0 (ix1 (i 1)))
    + binDot x w1 (i 0) (i 1) * (rowScale x (i 0) * a1 (ix1 (i 1))))
    + binDot x w2 (i 0) (i 1) * (rowScale x (i 0) * a2 (ix1 (i 1)))

/-! ## What is real -/

/-- A finite sum of real numbers, read in the extended reals, is the real sum. -/
theorem sum_coe_real {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The quantizer's value is a real number (`1` or `-1`) at every extended real. -/
theorem quant_real (v : EReal) : ∃ r : ℝ, quant v = (r : EReal) := by
  unfold quant Scalar.select
  split
  · exact ⟨1, word_one⟩
  · exact ⟨-1, word_negOne⟩

/-- So the binary product is a real number, whatever the arrays hold. -/
theorem binDot_real (x : SX.Idx → EReal) (w : SW.Idx → EReal) (n : Fin 32768) (u : Fin 1024) :
    ∃ r : ℝ, binDot x w n u = (r : EReal) := by
  choose f hf using fun k : Fin 1024 => quant_real (x (ix2 n k))
  choose g hg using fun k : Fin 1024 => quant_real (w (ix2 k u))
  refine ⟨∑ k : Fin 1024, f k * g k, ?_⟩
  unfold binDot
  rw [← sum_coe_real]
  exact Finset.sum_congr rfl fun k _ => by rw [hf, hg, EReal.coe_mul]

/-- The mean absolute value of a row of real numbers is a real number. -/
theorem rowScale_real (x : SX.Idx → EReal) (hx : ∀ i, ∃ r : ℝ, x i = (r : EReal)) (n : Fin 32768) :
    ∃ r : ℝ, rowScale x n = (r : EReal) := by
  choose f hf using fun k : Fin 1024 => hx (ix2 n k)
  refine ⟨(∑ k : Fin 1024, max (f k) (-(f k))) * (1 / 1024), ?_⟩
  unfold rowScale
  rw [word_1024, Ideal.div_coe (by norm_num : (1024 : ℝ) ≠ 0), EReal.coe_mul, ← sum_coe_real]
  refine congrArg (· * _) (Finset.sum_congr rfl fun k _ => ?_)
  rw [hf, ← EReal.coe_neg]
  exact (EReal.coe_strictMono.monotone.map_max).symm

/-! ## The law -/

/-- Distributivity on the reals, read in the extended reals: the two arrangements at one index. -/
theorem arrangements_agree (z0 z1 z2 a0 a1 a2 b : ℝ) :
    ((z0 : EReal) * ((b : EReal) * (a0 : EReal)) + (z1 : EReal) * ((b : EReal) * (a1 : EReal)))
        + (z2 : EReal) * ((b : EReal) * (a2 : EReal))
      = (((z0 : EReal) * (a0 : EReal) + (z1 : EReal) * (a1 : EReal)) + (z2 : EReal) * (a2 : EReal)) * (b : EReal) := by
  simp only [← EReal.coe_mul, ← EReal.coe_add]
  exact congrArg _ (by ring)

/-- The two arrangements are one function of arrays whose activations and column scales are real. -/
theorem scaleThenSum_eq_sumThenScale (x : SX.Idx → EReal) (w0 w1 w2 : SW.Idx → EReal) (a0 a1 a2 : SA.Idx → EReal)
    (hx : ∀ i, ∃ r : ℝ, x i = (r : EReal)) (h0 : ∀ i, ∃ r : ℝ, a0 i = (r : EReal))
    (h1 : ∀ i, ∃ r : ℝ, a1 i = (r : EReal)) (h2 : ∀ i, ∃ r : ℝ, a2 i = (r : EReal)) :
    scaleThenSum x w0 w1 w2 a0 a1 a2 = sumThenScale x w0 w1 w2 a0 a1 a2 := by
  funext i
  obtain ⟨z0, hz0⟩ := binDot_real x w0 (i 0) (i 1)
  obtain ⟨z1, hz1⟩ := binDot_real x w1 (i 0) (i 1)
  obtain ⟨z2, hz2⟩ := binDot_real x w2 (i 0) (i 1)
  obtain ⟨b, hb⟩ := rowScale_real x hx (i 0)
  obtain ⟨r0, hr0⟩ := h0 (ix1 (i 1))
  obtain ⟨r1, hr1⟩ := h1 (ix1 (i 1))
  obtain ⟨r2, hr2⟩ := h2 (ix1 (i 1))
  show (binDot x w0 (i 0) (i 1) * (rowScale x (i 0) * a0 (ix1 (i 1)))
      + binDot x w1 (i 0) (i 1) * (rowScale x (i 0) * a1 (ix1 (i 1))))
      + binDot x w2 (i 0) (i 1) * (rowScale x (i 0) * a2 (ix1 (i 1)))
    = ((binDot x w0 (i 0) (i 1) * a0 (ix1 (i 1)) + binDot x w1 (i 0) (i 1) * a1 (ix1 (i 1)))
      + binDot x w2 (i 0) (i 1) * a2 (ix1 (i 1))) * rowScale x (i 0)
  rw [hz0, hz1, hz2, hb, hr0, hr1, hr2]
  exact arrangements_agree z0 z1 z2 r0 r1 r2 b

end Cert.BinDense

end
-- ==== Proof.RefValue.lean ====
/-
  The reference's result, read one operation at a time at an index (n, u), is the arrangement
  "every term scaled, then summed": the three `dot_general`s are the binary products (the contraction
  index running over the activations' row n and the weights' column u), the `reduce` over axis 1
  followed by the division by 1024 is the row's mean absolute value, and the broadcasts place the row
  scale on axis 0 and each column scale on axis 1 of the outer product. The two zero words (the
  reduction's initial value and the accumulator the first term is added to) denote 0 and drop out.
-/
import proofs.«119326_j17729624998416_2_alg».proof.Proof.Gen.ReferenceIdeal.Read
import proofs.«119326_j17729624998416_2_alg».proof.Proof.Spec

noncomputable section

open scoped BigOperators

namespace Cert.BinDense.Ref

open Cert.ReferenceIdeal Cert.ReferenceIdeal.Read Cert.BinDense
open Idealize.ShloMosaic Idealize.ShloMosaic.ValueIdx

/-! ## The composed index maps, by coordinates -/

/-- Output index (n, u) with contraction index k reads the left operand at (n, k) … -/
theorem lhs_at (n : Fin 32768) (u k : Fin 1024) : lidx_main_v13 (ix2 n u) k = ix2 n k :=
  funext fun a => Fin.ext (by match a with | ⟨0, _⟩ => rfl | ⟨1, _⟩ => rfl)
/-- … and the right operand at (k, u). -/
theorem rhs_at (n : Fin 32768) (u k : Fin 1024) : ridx_main_v13 (ix2 n u) k = ix2 k u :=
  funext fun a => Fin.ext (by match a with | ⟨0, _⟩ => rfl | ⟨1, _⟩ => rfl)
/-- The same for the second and third products. -/
theorem lhs_at' (n : Fin 32768) (u k : Fin 1024) : lidx_main_v25 (ix2 n u) k = ix2 n k :=
  funext fun a => Fin.ext (by match a with | ⟨0, _⟩ => rfl | ⟨1, _⟩ => rfl)
theorem rhs_at' (n : Fin 32768) (u k : Fin 1024) : ridx_main_v25 (ix2 n u) k = ix2 k u :=
  funext fun a => Fin.ext (by match a with | ⟨0, _⟩ => rfl | ⟨1, _⟩ => rfl)
theorem lhs_at'' (n : Fin 32768) (u k : Fin 1024) : lidx_main_v37 (ix2 n u) k = ix2 n k :=
  funext fun a => Fin.ext (by match a with | ⟨0, _⟩ => rfl | ⟨1, _⟩ => rfl)
theorem rhs_at'' (n : Fin 32768) (u k : Fin 1024) : ridx_main_v37 (ix2 n u) k = ix2 k u :=
  funext fun a => Fin.ext (by match a with | ⟨0, _⟩ => rfl | ⟨1, _⟩ => rfl)

/-- The row scale broadcast to (n, u) is read at row n, whose reduction runs over (n, k). -/
theorem row_at (n : Fin 32768) (u k : Fin 1024) : idx_main_v5 (idx_main_v14 (idx_main_v16 (ix2 n u))) k = ix2 n k :=
  funext fun a => Fin.ext (by match a with | ⟨0, _⟩ => rfl | ⟨1, _⟩ => rfl)

theorem row_at' (n : Fin 32768) (u k : Fin 1024) : idx_main_v5 (idx_main_v26 (idx_main_v28 (ix2 n u))) k = ix2 n k :=
  funext fun a => Fin.ext (by match a with | ⟨0, _⟩ => rfl | ⟨1, _⟩ => rfl)
theorem row_at'' (n : Fin 32768) (u k : Fin 1024) : idx_main_v5 (idx_main_v38 (idx_main_v40 (ix2 n u))) k = ix2 n k :=
  funext fun a => Fin.ext (by match a with | ⟨0, _⟩ => rfl | ⟨1, _⟩ => rfl)

/-- A column scale broadcast to (n, u) is read at u. -/
theorem col_at (n : Fin 32768) (u : Fin 1024) : idx_main_v15 (idx_main_v17 (ix2 n u)) = ix1 u :=
  funext fun a => Fin.ext (by match a with | ⟨0, _⟩ => rfl)
theorem col_at' (n : Fin 32768) (u : Fin 1024) : idx_main_v27 (idx_main_v29 (ix2 n u)) = ix1 u :=
  funext fun a => Fin.ext (by match a with | ⟨0, _⟩ => rfl)
theorem col_at'' (n : Fin 32768) (u : Fin 1024) : idx_main_v39 (idx_main_v41 (ix2 n u)) = ix1 u :=
  funext fun a => Fin.ext (by match a with | ⟨0, _⟩ => rfl)

/-! ## The stages that occur three times, read once -/

/-- The quantized activations at an index. -/
theorem quantX_at (x0 : SX.Idx → EReal) (j : SX.Idx) : val_main_v3 (F := Ideal) x0 j = quant (x0 j) := by
  rw [val_main_v3_apply, val_main_v2_apply, val_main_v1_apply, val_main_v0_apply, val_main_cst_apply,
    val_main_call0_v0_apply, val_main_cst_0_apply, val_main_call0_v1_apply, val_main_cst_1_apply]
  rfl

/-- The three quantized weight arrays at an index. -/
theorem quantW0_at (x1 : SW.Idx → EReal) (j : SW.Idx) : val_main_v12 (F := Ideal) x1 j = quant (x1 j) := by
  rw [val_main_v12_apply, val_main_v11_apply, val_main_v10_apply, val_main_v9_apply, val_main_cst_5_apply,
    val_main_call1_v0_apply, val_main_cst_6_apply, val_main_call1_v1_apply, val_main_cst_7_apply]
  rfl
theorem quantW1_at (x2 : SW.Idx → EReal) (j : SW.Idx) : val_main_v24 (F := Ideal) x2 j = quant (x2 j) := by
  rw [val_main_v24_apply, val_main_v23_apply, val_main_v22_apply, val_main_v21_apply, val_main_cst_8_apply,
    val_main_call2_v0_apply, val_main_cst_9_apply, val_main_call2_v1_apply, val_main_cst_10_apply]
  rfl
theorem quantW2_at (x3 : SW.Idx → EReal) (j : SW.Idx) : val_main_v36 (F := Ideal) x3 j = quant (x3 j) := by
  rw [val_main_v36_apply, val_main_v35_apply, val_main_v34_apply, val_main_v33_apply, val_main_cst_11_apply,
    val_main_call3_v0_apply, val_main_cst_12_apply, val_main_call3_v1_apply, val_main_cst_13_apply]
  rfl

/-- The row's mean absolute value, read at row n through any composed index map that lands on (n, k). -/
theorem rowScale_of (x0 : SX.Idx → EReal) (n : Fin 32768) (r : S32768.Idx)
    (hr : ∀ k : Fin 1024, idx_main_v5 r k = ix2 n k) : val_main_v7 (F := Ideal) x0 r = rowScale x0 n := by
  rw [val_main_v7_apply, val_main_v5_apply, val_main_cst_2_apply, val_main_v6_apply, val_main_cst_3_apply]
  simp only [hr, val_main_v4_apply]
  show Ideal.div (Ideal.ofBits .f32 0x00000000#32 + _) _ = _
  rw [word_zero, zero_add]
  rfl

/-- The row scale broadcast over the columns, at (n, u). -/
theorem rowScale_at (x0 : SX.Idx → EReal) (n : Fin 32768) (u : Fin 1024) :
    val_main_v16 (F := Ideal) x0 (ix2 n u) = rowScale x0 n := by
  rw [val_main_v16_apply, val_main_v14_apply]
  exact rowScale_of x0 n _ (row_at n u)
theorem rowScale_at' (x0 : SX.Idx → EReal) (n : Fin 32768) (u : Fin 1024) :
    val_main_v28 (F := Ideal) x0 (ix2 n u) = rowScale x0 n := by
  rw [val_main_v28_apply, val_main_v26_apply]
  exact rowScale_of x0 n _ (row_at' n u)
theorem rowScale_at'' (x0 : SX.Idx → EReal) (n : Fin 32768) (u : Fin 1024) :
    val_main_v40 (F := Ideal) x0 (ix2 n u) = rowScale x0 n := by
  rw [val_main_v40_apply, val_main_v38_apply]
  exact rowScale_of x0 n _ (row_at'' n u)

/-- Each column scale broadcast over the rows, at (n, u). -/
theorem colScale_at (x4 : SA.Idx → EReal) (n : Fin 32768) (u : Fin 1024) : val_main_v17 (F := Ideal) x4 (ix2 n u) = x4 (ix1 u) := by
  rw [val_main_v17_apply, val_main_v15_apply, col_at]
theorem colScale_at' (x5 : SA.Idx → EReal) (n : Fin 32768) (u : Fin 1024) : val_main_v29 (F := Ideal) x5 (ix2 n u) = x5 (ix1 u) := by
  rw [val_main_v29_apply, val_main_v27_apply, col_at']
theorem colScale_at'' (x6 : SA.Idx → EReal) (n : Fin 32768) (u : Fin 1024) : val_main_v41 (F := Ideal) x6 (ix2 n u) = x6 (ix1 u) := by
  rw [val_main_v41_apply, val_main_v39_apply, col_at'']

/-- THE REFERENCE'S RESULT is "every term scaled, then summed" of its argument arrays. -/
theorem result_eq (x0 : SX.Idx → EReal) (x1 x2 x3 : SW.Idx → EReal) (x4 x5 x6 : SA.Idx → EReal) :
    val_main_v44 (F := Ideal) x0 x1 x2 x3 x4 x5 x6 = scaleThenSum x0 x1 x2 x3 x4 x5 x6 := by
  funext i
  obtain ⟨n, u, rfl⟩ : ∃ (n : Fin 32768) (u : Fin 1024), i = ix2 n u := ⟨i 0, i 1, eq_ix2 i⟩
  rw [val_main_v44_apply, val_main_v32_apply, val_main_v20_apply, val_main_v43_apply, val_main_v31_apply, val_main_v19_apply,
    val_main_v13_apply, val_main_v25_apply, val_main_v37_apply, val_main_v18_apply, val_main_v30_apply, val_main_v42_apply]
  rw [val_main_v8_apply, val_main_cst_4_apply, rowScale_at, rowScale_at', rowScale_at'', colScale_at, colScale_at', colScale_at'']
  simp only [quantX_at, quantW0_at, quantW1_at, quantW2_at, lhs_at, rhs_at, lhs_at', rhs_at', lhs_at'', rhs_at'']
  show ((Ideal.ofBits .f32 0x00000000#32 + _) + _) + _ = _
  rw [word_zero, zero_add]
  rfl

end Cert.BinDense.Ref

end
-- ==== Proof.Payload.lean ====
/-
  The kernel body's one stored value, read at an index (p, q) of its [1024, 1024] block: from the block
  X of 1024 activation rows, the three already-quantized weight arrays W_e and the three column scales
  A_e it is ((Σ_k q(X(p,k))·W_0(k,q))·A_0(q) + (Σ_k q(X(p,k))·W_1(k,q))·A_1(q) + (Σ_k q(X(p,k))·W_2(k,q))·A_2(q))
  · ((Σ_k |X(p,k)|) / 1024). Each matrix product into a zero accumulator is the plain sum over the
  contraction index; the lane reduction is the sum over a row; the casts and broadcasts that carry the
  row sums to a column [1024, 1] and across the columns, and each scale to a row [1, 1024] and across
  the rows, only move indices; changes of float format are the identity on extended reals.
-/
import proofs.«119326_j17729624998416_2_alg».proof.Proof.Gen.KernelIdeal.Skeleton
import proofs.«119326_j17729624998416_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BinDense.Body

open Cert.KernelIdeal Cert.KernelIdeal.Gen Cert.BinDense
open Idealize.ShloMosaic Idealize.ShloMosaic.ValueIdx

/-! ## The operations that are not pointwise, each read at an index -/

/-- The sum over a row: the lane reduction of a [1024, 1024] vector at p is the sum over k of its (p, k) entries. -/
theorem rowSum_at (v : FVec Ideal S1024x1024 .f32) (h : S1024x1024.Reduces [1] S1024) (hφ : FKind.Formats .f32)
    (hacc : (0x00000000#32 : BitVec 32) = 0x00000000#32) (p : Fin 1024) :
    multiReduction .add [1] S1024 v 0x00000000#32 h hφ hacc (ix1 p) = ∑ k : Fin 1024, v (ix2 p k) :=
  (Ideal.multiReduction_add_single v 0x00000000#32 h hφ hacc (ix1 p)).trans
    (Finset.sum_congr rfl fun k _ => congrArg v (funext fun a => Fin.ext (by match a with | ⟨0, _⟩ => rfl | ⟨1, _⟩ => rfl)))

/-- A vector [1024] viewed as a column [1024, 1] reads, at (p, 0), its entry p. -/
theorem column_at {α : Type} (v : S1024.Idx → α) (h : S1024.ShapeCasts S1024x1) (p : Fin 1024) (z : Fin 1) :
    shapeCast S1024x1 v h (ix2 p z) = v (ix1 p) :=
  shapeCast_apply v h _ _ (by
    have hz : z.val = 0 := by omega
    rw [Shape.rowMajor_val_two, Shape.rowMajor_val_one]
    show p.val = p.val * 1 + z.val
    omega)

/-- A column [1024, 1] broadcast across the columns reads, at (p, q), its entry (p, 0). -/
theorem acrossColumns_at {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ =>
    show (0 : Nat) = if (1 : Nat) = 1 then 0 else q.val
    rw [if_pos rfl]

/-- A vector [1024] viewed as a row [1, 1024] and broadcast across the rows reads, at (p, q), its entry q. -/
theorem acrossRows_at {α : Type} (v : S1024.Idx → α) (h : S1024.ShapeCasts S1x1024) (h' : S1x1024.Broadcasts S1024x1024)
    (p q : Fin 1024) : broadcastTo S1024x1024 (shapeCast S1x1024 v h) h' (ix2 p q) = v (ix1 q) :=
  (broadcastTo_1b_ab_apply _ h' p q).trans (shapeCast_a_1a_apply v h 0 q)

/-- The matrix product's index maps, by coordinates: at output index i and contraction index κ the left operand is read
    at (i 0, κ) and the right at (κ, i 1). -/
theorem lhs_row (i : S1024x1024.Idx) (κ : dot_S1024x1024_S1024x1024_S1024x1024_1_0_0_1_n_n.contr.Idx) :
    (dot_S1024x1024_S1024x1024_S1024x1024_1_0_0_1_n_n.lhsIdx i κ 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_col (i : S1024x1024.Idx) (κ : dot_S1024x1024_S1024x1024_S1024x1024_1_0_0_1_n_n.contr.Idx) :
    (dot_S1024x1024_S1024x1024_S1024x1024_1_0_0_1_n_n.lhsIdx i κ 1).val = (κ ⟨0, by decide⟩).val :=
  dot_S1024x1024_S1024x1024_S1024x1024_1_0_0_1_n_n.lhsIdx_val_of_single rfl i κ
theorem rhs_row (i : S1024x1024.Idx) (κ : dot_S1024x1024_S1024x1024_S1024x1024_1_0_0_1_n_n.contr.Idx) :
    (dot_S1024x1024_S1024x1024_S1024x1024_1_0_0_1_n_n.rhsIdx i κ 0).val = (κ ⟨0, by decide⟩).val :=
  dot_S1024x1024_S1024x1024_S1024x1024_1_0_0_1_n_n.rhsIdx_val_of_single rfl i κ
theorem rhs_col (i : S1024x1024.Idx) (κ : dot_S1024x1024_S1024x1024_S1024x1024_1_0_0_1_n_n.contr.Idx) :
    (dot_S1024x1024_S1024x1024_S1024x1024_1_0_0_1_n_n.rhsIdx i κ 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A matrix product [1024, 1024] × [1024, 1024] into the zero accumulator reads, at (p, q), the sum over k of
    the left operand at (p, k) times the right at (k, q). -/
theorem product_at (l r : FVec Ideal S1024x1024 .bf16) (p q : Fin 1024) :
    matmul dot_S1024x1024_S1024x1024_S1024x1024_1_0_0_1_n_n none l r (constant S1024x1024 .f32 0x00000000#32) (ix2 p q)
      = ∑ k : Fin 1024, l (ix2 p k) * r (ix2 k q) := by
  refine (Ideal.matmul_constant_zero_apply dot_S1024x1024_S1024x1024_S1024x1024_1_0_0_1_n_n none l r (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-! ## The stored value at an index -/

theorem stored_at (X : Vec Ideal S1024x1024 .f32) (W0 W1 W2 : Vec Ideal S1024x1024 .bf16) (A0 A1 A2 : Vec Ideal S1024 .f32)
    (p q : Fin 1024) :
    k0_pay1 (F := Ideal) X W0 A0 W1 A1 W2 A2 (ix2 p q)
      = (((∑ k : Fin 1024, quant (X (ix2 p k)) * W0 (ix2 k q)) * A0 (ix1 q)
          + (∑ k : Fin 1024, quant (X (ix2 p k)) * W1 (ix2 k q)) * A1 (ix1 q))
          + (∑ k : Fin 1024, quant (X (ix2 p k)) * W2 (ix2 k q)) * A2 (ix1 q))
        * Ideal.div (∑ k : Fin 1024, max (X (ix2 p k)) (-(X (ix2 p k)))) (Ideal.ofBits .f32 0x44800000#32) := by
  unfold k0_pay1
  simp only [mulf_apply, addf_apply]
  rw [product_at, product_at, product_at, acrossRows_at, acrossRows_at, acrossRows_at, acrossColumns_at, divf_apply, column_at]
  rw [rowSum_at]
  simp only [shapeCast_self]
  show (Ideal.ofBits .f32 0x00000000#32 + _ + _ + _) * _ = _
  rw [word_zero, zero_add]
  rfl

end Cert.BinDense.Body

end
-- ==== Proof.Staged.lean ====
/-
  What the region finds in the three arrays its weight windows stage: before the launch the host
  quantizes each weight array once — compare with 0, select 1 or -1, change format —, so at every
  index the staged array holds the quantizer applied to the launch contents of the weight argument.
-/
import proofs.«119326_j17729624998416_2_alg».proof.Proof.Gen.KernelIdeal.Frame
import proofs.«119326_j17729624998416_2_alg».proof.Proof.Spec
import Idealize.ShloMosaic.Lib.StableHlo.Run

noncomputable section

namespace Cert.BinDense.Staged

open Cert.KernelIdeal Cert.KernelIdeal.Gen Cert.BinDense
open Idealize.ShloMosaic Idealize.ShloMosaic.TcCoe Idealize.SL.Sem Idealize.ShloMosaic.StableHlo

variable (m : (ℓ : Loc nD τ sig) → Buf (Elt Ideal) ℓ)

/-- The first window's staged weights. -/
theorem weights0 (c : Dev nD) (j : S1024x1024.Idx) :
    (V m c main_v3 : S1024x1024.Idx → EReal) j = quant ((m ((c : Thread nD τ).loc main_arg1) : S1024x1024.Idx → EReal) j) := by
  have e : (V m c main_v3 : S1024x1024.Idx → EReal)
      = truncf .bf16 (select (cmpf .oge (m ((c : Thread nD τ).loc main_arg1) : S1024x1024.Idx → EReal)
            (broadcastInDim S1024x1024 ![] bcast_S_S1024x1024 (constant (F := Ideal) S_ .f32 0x00000000#32)))
          (broadcastInDim S1024x1024 ![] bcast_S_S1024x1024 (constant (F := Ideal) S_ .f32 0x3F800000#32))
          (broadcastInDim S1024x1024 ![] bcast_S_S1024x1024 (constant (F := Ideal) S_ .f32 0xBF800000#32))) bitsLt_bf16_f32 := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]
  rfl

/-- The second's. -/
theorem weights1 (c : Dev nD) (j : S1024x1024.Idx) :
    (V m c main_v7 : S1024x1024.Idx → EReal) j = quant ((m ((c : Thread nD τ).loc main_arg2) : S1024x1024.Idx → EReal) j) := by
  have e : (V m c main_v7 : S1024x1024.Idx → EReal)
      = truncf .bf16 (select (cmpf .oge (m ((c : Thread nD τ).loc main_arg2) : S1024x1024.Idx → EReal)
            (broadcastInDim S1024x1024 ![] bcast_S_S1024x1024 (constant (F := Ideal) S_ .f32 0x00000000#32)))
          (broadcastInDim S1024x1024 ![] bcast_S_S1024x1024 (constant (F := Ideal) S_ .f32 0x3F800000#32))
          (broadcastInDim S1024x1024 ![] bcast_S_S1024x1024 (constant (F := Ideal) S_ .f32 0xBF800000#32))) bitsLt_bf16_f32 := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]
  rfl

/-- The third's. -/
theorem weights2 (c : Dev nD) (j : S1024x1024.Idx) :
    (V m c main_v11 : S1024x1024.Idx → EReal) j = quant ((m ((c : Thread nD τ).loc main_arg3) : S1024x1024.Idx → EReal) j) := by
  have e : (V m c main_v11 : S1024x1024.Idx → EReal)
      = truncf .bf16 (select (cmpf .oge (m ((c : Thread nD τ).loc main_arg3) : S1024x1024.Idx → EReal)
            (broadcastInDim S1024x1024 ![] bcast_S_S1024x1024 (constant (F := Ideal) S_ .f32 0x00000000#32)))
          (broadcastInDim S1024x1024 ![] bcast_S_S1024x1024 (constant (F := Ideal) S_ .f32 0x3F800000#32))
          (broadcastInDim S1024x1024 ![] bcast_S_S1024x1024 (constant (F := Ideal) S_ .f32 0xBF800000#32))) bitsLt_bf16_f32 := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]
  rfl

end Cert.BinDense.Staged

end
-- ==== Proof.Blocks.lean ====
/-
  From the blocks to the array. The grid has 32 points; point t stages rows 1024·t … 1024·t + 1023 of
  the activations (all 1024 columns), the whole of each quantized weight array and of each column scale,
  and writes back rows 1024·t … 1024·t + 1023 of the result. So what point t writes back is exactly that
  block of rows of "the ensemble summed first, then the row scale" of the argument arrays; the 32 blocks
  of rows cover the result array (row r lies in block r / 1024); hence the array after the run is that
  function everywhere.
-/
import proofs.«119326_j17729624998416_2_alg».proof.Proof.Gen.KernelIdeal.Value
import proofs.«119326_j17729624998416_2_alg».proof.Proof.Payload
import proofs.«119326_j17729624998416_2_alg».proof.Proof.Staged
import Idealize.ShloMosaic.Lib.Pipeline.Value

noncomputable section

open scoped BigOperators

namespace Cert.BinDense.Blocks

open Cert.KernelIdeal Cert.KernelIdeal.Gen Cert.BinDense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The result array as one function of the launch contents of the seven arguments. -/
abbrev result (c : Dev nD) : SX.Idx → EReal :=
  sumThenScale (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The printed index maps over the 32 grid points: the activations' and the result's block index is (t, 0); every
    other window stays at its one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

/-! ## Each input block, read where the result's block says -/

/-- The activations' block at point t holds rows 1024·t … of the argument. -/
theorem rows_at (c : Dev nD) (t : Fin cfg0.N) (p k : Fin 1024) (n : Fin 32768) (hn : n.val = t.val * 1024 + p.val) :
    (iblk m c 0 t : Vec Ideal S1024x1024 .f32) (ix2 p k)
      = (m ((c : Thread nD τ).loc main_arg0) : S32768x1024.Idx → EReal) (ix2 n k) := by
  obtain ⟨e0, e1, -⟩ := index_maps t
  unfold iblk
  rw [View.read_apply]
  show V m c main_arg0 _ = _
  rw [V_main_arg0 m c]
  refine congrArg (m ((c : Thread nD τ).loc main_arg0) : S32768x1024.Idx → EReal) (funext fun a => Fin.ext ?_)
  match a with
  | ⟨0, _⟩ => show win0_0.index t (0 : Fin 2) * 1024 + 1 * p.val = n.val; omega
  | ⟨1, _⟩ => show win0_0.index t (1 : Fin 2) * 1024 + 1 * k.val = k.val; omega

/-- Each weight window's one block is the whole quantized weight array. -/
theorem weights0_at (c : Dev nD) (t : Fin cfg0.N) (k q : Fin 1024) :
    (iblk m c 1 t : Vec Ideal S1024x1024 .bf16) (ix2 k q)
      = quant ((m ((c : Thread nD τ).loc main_arg1) : S1024x1024.Idx → EReal) (ix2 k q)) := by
  obtain ⟨-, -, e0, e1, -⟩ := index_maps t
  unfold iblk
  rw [View.read_apply]
  show V m c main_v3 _ = _
  refine (congrArg (V m c main_v3 : S1024x1024.Idx → EReal) (funext fun a => Fin.ext ?_)).trans (Staged.weights0 m c (ix2 k q))
  match a with
  | ⟨0, _⟩ => show win0_1.index t (0 : Fin 2) * 1024 + 1 * k.val = k.val; omega
  | ⟨1, _⟩ => show win0_1.index t (1 : Fin 2) * 1024 + 1 * q.val = q.val; omega
theorem weights1_at (c : Dev nD) (t : Fin cfg0.N) (k q : Fin 1024) :
    (iblk m c 2 t : Vec Ideal S1024x1024 .bf16) (ix2 k q)
      = quant ((m ((c : Thread nD τ).loc main_arg2) : S1024x1024.Idx → EReal) (ix2 k q)) := by
  obtain ⟨-, -, -, -, e0, e1, -⟩ := index_maps t
  unfold iblk
  rw [View.read_apply]
  show V m c main_v7 _ = _
  refine (congrArg (V m c main_v7 : S1024x1024.Idx → EReal) (funext fun a => Fin.ext ?_)).trans (Staged.weights1 m c (ix2 k q))
  match a with
  | ⟨0, _⟩ => show win0_2.index t (0 : Fin 2) * 1024 + 1 * k.val = k.val; omega
  | ⟨1, _⟩ => show win0_2.index t (1 : Fin 2) * 1024 + 1 * q.val = q.val; omega
theorem weights2_at (c : Dev nD) (t : Fin cfg0.N) (k q : Fin 1024) :
    (iblk m c 3 t : Vec Ideal S1024x1024 .bf16) (ix2 k q)
      = quant ((m ((c : Thread nD τ).loc main_arg3) : S1024x1024.Idx → EReal) (ix2 k q)) := by
  obtain ⟨-, -, -, -, -, -, e0, e1, -⟩ := index_maps t
  unfold iblk
  rw [View.read_apply]
  show V m c main_v11 _ = _
  refine (congrArg (V m c main_v11 : S1024x1024.Idx → EReal) (funext fun a => Fin.ext ?_)).trans (Staged.weights2 m c (ix2 k q))
  match a with
  | ⟨0, _⟩ => show win0_3.index t (0 : Fin 2) * 1024 + 1 * k.val = k.val; omega
  | ⟨1, _⟩ => show win0_3.index t (1 : Fin 2) * 1024 + 1 * q.val = q.val; omega

/-- Each scale window's one block is the whole column-scale argument. -/
theorem scale0_at (c : Dev nD) (t : Fin cfg0.N) (q : Fin 1024) :
    (iblk m c 4 t : Vec Ideal S1024 .f32) (ix1 q) = (m ((c : Thread nD τ).loc main_arg4) : S1024.Idx → EReal) (ix1 q) := by
  obtain ⟨-, -, -, -, -, -, -, -, e0, -⟩ := index_maps t
  unfold iblk
  rw [View.read_apply]
  show V m c main_arg4 _ = _
  rw [V_main_arg4 m c]
  refine congrArg (m ((c : Thread nD τ).loc main_arg4) : S1024.Idx → EReal) (funext fun a => Fin.ext ?_)
  match a with
  | ⟨0, _⟩ => show win0_4.index t (0 : Fin 1) * 1024 + 1 * q.val = q.val; omega
theorem scale1_at (c : Dev nD) (t : Fin cfg0.N) (q : Fin 1024) :
    (iblk m c 5 t : Vec Ideal S1024 .f32) (ix1 q) = (m ((c : Thread nD τ).loc main_arg5) : S1024.Idx → EReal) (ix1 q) := by
  obtain ⟨-, -, -, -, -, -, -, -, -, e0, -⟩ := index_maps t
  unfold iblk
  rw [View.read_apply]
  show V m c main_arg5 _ = _
  rw [V_main_arg5 m c]
  refine congrArg (m ((c : Thread nD τ).loc main_arg5) : S1024.Idx → EReal) (funext fun a => Fin.ext ?_)
  match a with
  | ⟨0, _⟩ => show win0_5.index t (0 : Fin 1) * 1024 + 1 * q.val = q.val; omega
theorem scale2_at (c : Dev nD) (t : Fin cfg0.N) (q : Fin 1024) :
    (iblk m c 6 t : Vec Ideal S1024 .f32) (ix1 q) = (m ((c : Thread nD τ).loc main_arg6) : S1024.Idx → EReal) (ix1 q) := by
  obtain ⟨-, -, -, -, -, -, -, -, -, -, e0, -⟩ := index_maps t
  unfold iblk
  rw [View.read_apply]
  show V m c main_arg6 _ = _
  rw [V_main_arg6 m c]
  refine congrArg (m ((c : Thread nD τ).loc main_arg6) : S1024.Idx → EReal) (funext fun a => Fin.ext ?_)
  match a with
  | ⟨0, _⟩ => show win0_6.index t (0 : Fin 1) * 1024 + 1 * q.val = q.val; omega

/-! ## What a point writes back -/

/-- The body's stored value at (p, q) of point t's block is the result function at row 1024·t + p, column q. -/
theorem stored_eq (c : Dev nD) (t : Fin cfg0.N) (y : S1024x1024.Idx) (i : S32768x1024.Idx)
    (h0 : (i 0).val = t.val * 1024 + (y 0).val) (h1 : (i 1).val = (y 1).val) :
    k0_pay1 (F := Ideal) (iblk m c 0 t) (iblk m c 1 t) (iblk m c 4 t) (iblk m c 2 t) (iblk m c 5 t) (iblk m c 3 t) (iblk m c 6 t) y
      = result m c i := by
  obtain ⟨p, q, rfl⟩ : ∃ (p q : Fin 1024), y = ix2 p q := ⟨y 0, y 1, eq_ix2 y⟩
  obtain ⟨n, u, rfl⟩ : ∃ (n : Fin 32768) (u : Fin 1024), i = ix2 n u := ⟨i 0, i 1, eq_ix2 i⟩
  obtain rfl : u = q := Fin.ext h1
  have hn : n.val = t.val * 1024 + p.val := h0
  refine (Body.stored_at (iblk m c 0 t) (iblk m c 1 t) (iblk m c 2 t) (iblk m c 3 t) (iblk m c 4 t) (iblk m c 5 t) (iblk m c 6 t) p u).trans ?_
  simp only [fun k => rows_at m c t p k n hn, weights0_at, weights1_at, weights2_at, scale0_at, scale1_at, scale2_at]
  rfl

theorem flushed_eq (c : Dev nD) (t : Fin cfg0.N) :
    (dats m 0 c).flushed 7 t = ((cfg0.win 7).blk t).view.read (Elt Ideal) (result m c) := by
  obtain ⟨-, -, -, -, -, -, -, -, -, -, -, e0, e1⟩ := index_maps t
  rw [Value.flushed7]
  unfold out0_7
  rw [View.canon_unit_zero zeros2]
  simp only [View.ld_unit_zero (S := S1024x1024) zeros2, View.ld_unit_zero (S := S1024) zeros1]
  funext y
  refine stored_eq m c t y _ ?_ ?_
  · show win0_7.index t (0 : Fin 2) * 1024 + 1 * (y 0).val = t.val * 1024 + (y 0).val; omega
  · show win0_7.index t (1 : Fin 2) * 1024 + 1 * (y 1).val = (y 1).val; omega

/-! ## The cover, and the array after the run -/

/-- An index of the result array is in point t's block iff each coordinate is in the block's range on its axis. -/
theorem mem_block (t : Fin cfg0.N) (i : S32768x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v12).slice (win0_7.rect t)).set ↔ _
  rw [View.set_slice_whole, Rect.mem_set_unit]
  exact Iff.rfl

/-- THE ARRAY AFTER THE RUN is the result function of the argument arrays: row r is written by point r / 1024. -/
theorem final (c : Dev nD) : (dats m 0 c).arrAt 7 cfg0.N = result m c :=
  (dats m 0 c).arrAt_eq_of_cover 7 (result m c) (fun t _ => flushed_eq m c t) fun i => by
    have hi0 : (i 0).val < 32768 := (i 0).isLt
    have hi1 : (i 1).val < 1024 := (i 1).isLt
    have hN : grid0.N = 32 := N_0
    have ht : (i 0).val / 1024 < cfg0.N := by show (i 0).val / 1024 < grid0.N; omega
    obtain ⟨-, -, -, -, -, -, -, -, -, -, -, e0, e1⟩ := index_maps ⟨(i 0).val / 1024, ht⟩
    refine ⟨⟨(i 0).val / 1024, ht⟩, flush0_7 _, ?_⟩
    rw [mem_block]
    intro a
    match a with
    | ⟨0, _⟩ =>
      show win0_7.index ⟨(i 0).val / 1024, ht⟩ (0 : Fin 2) * 1024 ≤ (i 0).val
        ∧ (i 0).val < win0_7.index ⟨(i 0).val / 1024, ht⟩ (0 : Fin 2) * 1024 + 1024
      rw [e0]
      show (i 0).val / 1024 * 1024 ≤ (i 0).val ∧ (i 0).val < (i 0).val / 1024 * 1024 + 1024
      omega
    | ⟨1, _⟩ =>
      show win0_7.index ⟨(i 0).val / 1024, ht⟩ (1 : Fin 2) * 1024 ≤ (i 1).val
        ∧ (i 1).val < win0_7.index ⟨(i 0).val / 1024, ht⟩ (1 : Fin 2) * 1024 + 1024
      rw [e1]
      omega

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.BinDense.Blocks

end
-- ==== Proof.Finite.lean ====
/-
  What the precondition gives: it is the conjunction, over the seven float arguments, of "every entry's
  absolute value is below +∞". An extended real whose absolute value max(x, -x) is below ⊤ is neither ⊤
  nor ⊥, so it is a real number. The algebra between the two arrangements needs this of the activations
  and of the three column scales.
-/
import proofs.«119326_j17729624998416_2_alg».proof.Pre_finite_inputs
import proofs.«119326_j17729624998416_2_alg».proof.Proof.Spec
import Idealize.ShloMosaic.Lib.ReduceAll

noncomputable section

namespace Cert.BinDense.Finite

open Cert.Pre_finite_inputs Cert.Pre_finite_inputs.Facts Cert.BinDense
open Idealize.ShloMosaic Idealize.ShloMosaic.ValueIdx

/-- The rank-0 shape has one index. -/
instance : Subsingleton S_.Idx := ⟨fun a b => funext fun d => d.elim0⟩

/-- The word of `+inf` denotes `⊤`. -/
theorem word_inf : Ideal.ofBits .f32 0x7F800000#32 = ⊤ := by
  simp [Ideal.ofBits, Ideal.ieee]

/-- A one-bit word made from a Boolean is 1 only if the Boolean is true. -/
theorem true_of_ofBool {b : Bool} (h : BitVec.ofBool b = 1#1) : b = true := by cases b <;> first | rfl | exact absurd h (by decide)

/-- An extended real whose absolute value compares below `+inf` is a real number. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have h' : max x (-x) < ⊤ := by
    have : Ideal.cmp .olt (max x (-x)) (Ideal.ofBits .f32 0x7F800000#32) = 1#1 := h
    rw [word_inf] at this
    exact of_decide_eq_true (true_of_ofBool this)
  induction x using EReal.rec with
  | bot => simp at h'
  | top => simp at h'
  | coe r => exact ⟨r, rfl⟩

/-- One argument's conjunct: if the reduction by `and` of the entrywise comparison is 1, every entry is real. -/
theorem reals_of_all {s : Shape} {axes : List (Fin s.rank)} (x : FVec Ideal s .f32) (bc : FVec Ideal s .f32)
    (hbc : ∀ i, bc i = Ideal.ofBits .f32 0x7F800000#32) (init : IVec S_ 1) (hr : s.ReducesTo axes S_) (hu : 0 < S_.numel)
    (h : Host.reduce IntOp.andi (cmpf .olt (Host.absf x) bc) init hr hu ix0 = 1#1) (i : s.Idx) :
    ∃ r : ℝ, x i = (r : EReal) := by
  have e := Host.reduce_andi_all _ init hr hu ix0 h i
  refine real_of_abs_lt_inf (x i) ?_
  rw [← hbc i]
  exact e

variable [Facts]

/-- THE PRECONDITION, READ: the activations and the three column scales hold real numbers. -/
theorem reals_of_finite_inputs (x : FVec Ideal S32768x1024 .f32) (k0 k1 k2 : FVec Ideal S1024x1024 .f32)
    (a0 a1 a2 : FVec Ideal S1024 .f32) (h : fn (F := Ideal) x k0 k1 k2 a0 a1 a2 = fun _ => 1#1) :
    (∀ i, ∃ r : ℝ, x i = (r : EReal)) ∧ (∀ i, ∃ r : ℝ, a0 i = (r : EReal)) ∧ (∀ i, ∃ r : ℝ, a1 i = (r : EReal))
      ∧ (∀ i, ∃ r : ℝ, a2 i = (r : EReal)) := by
  have h0 := congrFun h ix0
  dsimp only [fn, fn_part1] at h0
  obtain ⟨h0, r6⟩ := IntOp.andi_eq_one.1 h0
  obtain ⟨h0, r5⟩ := IntOp.andi_eq_one.1 h0
  obtain ⟨h0, r4⟩ := IntOp.andi_eq_one.1 h0
  obtain ⟨h0, -⟩ := IntOp.andi_eq_one.1 h0
  obtain ⟨h0, -⟩ := IntOp.andi_eq_one.1 h0
  obtain ⟨r0, -⟩ := IntOp.andi_eq_one.1 h0
  exact ⟨reals_of_all x _ (fun _ => rfl) _ _ _ r0, reals_of_all a0 _ (fun _ => rfl) _ _ _ r4,
    reals_of_all a1 _ (fun _ => rfl) _ _ _ r5, reals_of_all a2 _ (fun _ => rfl) _ _ _ r6⟩

end Cert.BinDense.Finite

end
-- ==== Proof.lean ====
/-
  The certificate of an ensemble of three binary-quantized dense layers with L1 scaling.

  With q the binary quantizer (1 at and above zero, -1 below), Z_e(n, u) = Σ_k q(x(n, k))·q(w_e(k, u))
  the three binary products and β(n) = (Σ_k |x(n, k)|)/1024 the mean absolute value of activation row n,
  the kernel computes, block of 1024 rows by block, ((Z_0·a_0 + Z_1·a_1) + Z_2·a_2)(n, u)·β(n) — the
  weights quantized once on the host before the launch, the row scale applied once after the ensemble
  is summed — and the reference (Z_0·(β·a_0) + Z_1·(β·a_1)) + Z_2·(β·a_2), every term scaled by the
  outer product of the row scale and its column scale.

  At the extended reals the matrix unit's products into a zero accumulator and the host's dot_general
  are the same sums, the lane reduction and the host's reduce are the same sum, both divisions are by
  the same 1024, and changes of float format are the identity; what remains between the two sides is
  distributivity of the product over the sum, which holds because under the precondition the
  activations and the column scales are real numbers (the quantized values always are).

  The modules: Spec (the two arrangements and the law between them), RefValue (the reference's run
  read at an index is the second arrangement), Payload (the kernel body's stored value at an index),
  Staged (the host-quantized weights as the region finds them), Blocks (each grid point writes its
  block of rows of the first arrangement; the blocks cover the array), Finite (the precondition gives
  real entries). The three frames and the kernel's and the reference's runs are the generated ones;
  the idealization rewrote nothing, so its conjunct is trivial.
-/
import proofs.«119326_j17729624998416_2_alg».proof.Defs
import proofs.«119326_j17729624998416_2_alg».proof.Proof.Gen.Kernel
import proofs.«119326_j17729624998416_2_alg».proof.Proof.Gen.Kernel.Skeleton
import proofs.«119326_j17729624998416_2_alg».proof.Proof.Gen.Kernel.Launch
import proofs.«119326_j17729624998416_2_alg».proof.Proof.Gen.Kernel.Points
import proofs.«119326_j17729624998416_2_alg».proof.Proof.Gen.Kernel.Frame
import proofs.«119326_j17729624998416_2_alg».proof.Proof.Gen.KernelIdeal
import proofs.«119326_j17729624998416_2_alg».proof.Proof.Gen.KernelIdeal.Skeleton
import proofs.«119326_j17729624998416_2_alg».proof.Proof.Gen.KernelIdeal.Launch
import proofs.«119326_j17729624998416_2_alg».proof.Proof.Gen.KernelIdeal.Points
import proofs.«119326_j17729624998416_2_alg».proof.Proof.Gen.KernelIdeal.Frame
import proofs.«119326_j17729624998416_2_alg».proof.Proof.Gen.ReferenceIdeal
import proofs.«119326_j17729624998416_2_alg».proof.Proof.Gen.Pre_finite_inputs
import proofs.«119326_j17729624998416_2_alg».proof.Proof.Gen.KernelIdeal.Value
import proofs.«119326_j17729624998416_2_alg».proof.Proof.Gen.ReferenceIdeal.Run
import proofs.«119326_j17729624998416_2_alg».proof.Proof.Gen.ReferenceIdeal.Read
import proofs.«119326_j17729624998416_2_alg».proof.Proof.Spec
import proofs.«119326_j17729624998416_2_alg».proof.Proof.RefValue
import proofs.«119326_j17729624998416_2_alg».proof.Proof.Blocks
import proofs.«119326_j17729624998416_2_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at "summed, then scaled" of its arguments and
    the reference's at "scaled, then summed" of the same arrays; the precondition makes the activations and the column
    scales real, where the two arrangements are one function. -/
theorem algebraic : Cert.algebraic_KernelIdeal_ReferenceIdeal := by
  intro m ρ m' ρ' hpre hagree
  refine ⟨fun c => Cert.BinDense.Blocks.result m c, Cert.BinDense.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  obtain ⟨hx, h0, h1, h2⟩ := Cert.BinDense.Finite.reals_of_finite_inputs _ _ _ _ _ _ _ (hpre c)
  rw [e0, e1, e2, e3, e4, e5, e6]
  exact (Cert.ReferenceIdeal.Read.val_main_v44_eq _ _ _ _ _ _ _).trans
    ((Cert.BinDense.Ref.result_eq _ _ _ _ _ _ _).trans
      (Cert.BinDense.scaleThenSum_eq_sumThenScale _ _ _ _ _ _ _ hx h0 h1 h2))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
